-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128x2 : Shape := ⟨3, ![32768, 128, 2]⟩
abbrev S128 : Shape := ⟨1, ![128]⟩
abbrev S32768x2 : Shape := ⟨2, ![32768, 2]⟩
abbrev S4x64 : Shape := ⟨2, ![4, 64]⟩
abbrev S64 : Shape := ⟨1, ![64]⟩
abbrev S64x64 : Shape := ⟨2, ![64, 64]⟩
abbrev S_ : Shape := ⟨0, ![]⟩

class Facts : Prop where
  bcast_S_S32768x128x2 : S_.BroadcastsInDim S32768x128x2 (![] : Fin 0 → Fin S32768x128x2.rank)
  reducesTo_S32768x128x2_S_d0_1_2 : S32768x128x2.ReducesTo [0, 1, 2] S_
  h_S_ : 0 < S_.numel
  bcast_S_S128 : S_.BroadcastsInDim S128 (![] : Fin 0 → Fin S128.rank)
  reducesTo_S128_S_d0 : S128.ReducesTo [0] S_
  bcast_S_S32768x2 : S_.BroadcastsInDim S32768x2 (![] : Fin 0 → Fin S32768x2.rank)
  reducesTo_S32768x2_S_d0_1 : S32768x2.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32768x128x2 .f32) (main_arg1 : FVec F S128 .f32) (main_arg2 : FVec F S32768x2 .f32) (main_arg3 : FVec F S4x64 .f32) (main_arg4 : FVec F S64 .f32) (main_arg5 : FVec F S64x64 .f32) (main_arg6 : FVec F S64 .f32) : IVec S_ 1 :=
  let main_v0 : FVec F S32768x128x2 .f32 := Host.absf main_arg0
  let main_cst : FVec F S_ .f32 := constant S_ .f32 0x7F800000#32
  let main_v1 : FVec F S32768x128x2 .f32 := broadcastInDim S32768x128x2 ![] bcast_S_S32768x128x2 main_cst
  let main_v2 : IVec S32768x128x2 1 := cmpf .olt main_v0 main_v1
  let main_c : IVec S_ 1 := constantI S_ 1 1#1
  let main_v3 : IVec S_ 1 := (fun x v => Host.reduce IntOp.andi x v reducesTo_S32768x128x2_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S32768x2 .f32 := Host.absf main_arg2
  let main_cst_2 : FVec F S_ .f32 := constant S_ .f32 0x7F800000#32
  let main_v10 : FVec F S32768x2 .f32 := broadcastInDim S32768x2 ![] bcast_S_S32768x2 main_cst_2
  let main_v11 : IVec S32768x2 1 := cmpf .olt main_v9 main_v10
  let main_c_3 : IVec S_ 1 := constantI S_ 1 1#1
  let main_v12 : IVec S_ 1 := (fun x v => Host.reduce IntOp.andi x v reducesTo_S32768x2_S_d0_1 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_arg6 main_v13 main_v16
-- ==== Kernel.lean ====
abbrev S32768x128x2 : Shape := ⟨3, ![32768, 128, 2]⟩
abbrev S128 : Shape := ⟨1, ![128]⟩
abbrev S32768x2 : Shape := ⟨2, ![32768, 2]⟩
abbrev S4x64 : Shape := ⟨2, ![4, 64]⟩
abbrev S64 : Shape := ⟨1, ![64]⟩
abbrev S64x64 : Shape := ⟨2, ![64, 64]⟩
abbrev S32768x64 : Shape := ⟨2, ![32768, 64]⟩
abbrev S64x128x2 : Shape := ⟨3, ![64, 128, 2]⟩
abbrev S64x2 : Shape := ⟨2, ![64, 2]⟩
abbrev S64x1x2 : Shape := ⟨3, ![64, 1, 2]⟩
abbrev S64x128x1 : Shape := ⟨3, ![64, 128, 1]⟩
abbrev S64x128 : Shape := ⟨2, ![64, 128]⟩
abbrev S1x128 : Shape := ⟨2, ![1, 128]⟩
abbrev S1x64 : Shape := ⟨2, ![1, 64]⟩
abbrev S1x1x64 : Shape := ⟨3, ![1, 1, 64]⟩
abbrev S64x128x64 : Shape := ⟨3, ![64, 128, 64]⟩
abbrev S8192x64 : Shape := ⟨2, ![8192, 64]⟩

abbrev nBuf : Space → Nat
  | .hbm => 8
  | .vmem => 11
  | .smem => 0
  | _ => 0

abbrev bufTy : (tb : Table) → Fin (tcTables nBuf tb) → BufTy
  | .hbm, ⟨0, _⟩ => ⟨S32768x128x2, .f32⟩
  | .hbm, ⟨1, _⟩ => ⟨S128, .f32⟩
  | .hbm, ⟨2, _⟩ => ⟨S32768x2, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32768x64, .f32⟩
  | .local _ .vmem, ⟨0, _⟩ => ⟨S64x128x2, .f32⟩
  | .local _ .vmem, ⟨1, _⟩ => ⟨S64x128x2, .f32⟩
  | .local _ .vmem, ⟨2, _⟩ => ⟨S64x2, .f32⟩
  | .local _ .vmem, ⟨3, _⟩ => ⟨S64x2, .f32⟩
  | .local _ .vmem, ⟨4, _⟩ => ⟨S128, .f32⟩
  | .local _ .vmem, ⟨5, _⟩ => ⟨S4x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S64x64, .f32⟩
  | .local _ .vmem, ⟨10, _⟩ => ⟨S64x64, .f32⟩
  | _, _ => ⟨S32768x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S64x128x2_S64x128x2_0_0_0 : ∀ a, (![0, 0, 0] : Fin 3 → Nat) a + S64x128x2.size a ≤ S64x128x2.size a
  h_S64x128x2 : 0 < S64x128x2.numel
  inb_S64x2_S64x2_0_0 : ∀ a, (![0, 0] : Fin 2 → Nat) a + S64x2.size a ≤ S64x2.size a
  h_S64x2 : 0 < S64x2.numel
  shapeCasts_S64x2_S64x1x2 : S64x2.ShapeCasts S64x1x2
  broadcasts_S64x1x2_S64x128x2 : S64x1x2.Broadcasts S64x128x2
  slices_S64x128x2_o0_0_0_S64x128x1 : S64x128x2.Slices ![0, 0, 0] S64x128x1
  shapeCasts_S64x128x1_S64x128 : S64x128x1.ShapeCasts S64x128
  slices_S64x128x2_o0_0_1_S64x128x1 : S64x128x2.Slices ![0, 0, 1] S64x128x1
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S64x128 : S1x128.Broadcasts S64x128
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64x128_S64x128x1 : S64x128.ShapeCasts S64x128x1
  slices_S4x64_o0_0_S1x64 : S4x64.Slices ![0, 0] S1x64
  shapeCasts_S1x64_S64 : S1x64.ShapeCasts S64
  shapeCasts_S64_S1x1x64 : S64.ShapeCasts S1x1x64
  broadcasts_S64x128x1_S64x128x64 : S64x128x1.Broadcasts S64x128x64
  broadcasts_S1x1x64_S64x128x64 : S1x1x64.Broadcasts S64x128x64
  slices_S4x64_o1_0_S1x64 : S4x64.Slices ![1, 0] S1x64
  slices_S4x64_o2_0_S1x64 : S4x64.Slices ![2, 0] S1x64
  slices_S4x64_o3_0_S1x64 : S4x64.Slices ![3, 0] S1x64
  shapeCasts_S64x128x64_S8192x64 : S64x128x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S8192x64 : S1x64.Broadcasts S8192x64
  shapeCasts_S8192x64_S64x128x64 : S8192x64.ShapeCasts S64x128x64
  reduces_S64x128x64_S64x64 : S64x128x64.Reduces [1] S64x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x2.size a ≤ S32768x128x2.size a
  hwx0_0 : ∀ i : grid0.Coords, EltTy.bits .f32 = 32 ∨ (Rect.block (s := S32768x128x2) S64x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S32768x2.size a
  hwx0_1 : ∀ i : grid0.Coords, EltTy.bits .f32 = 32 ∨ (Rect.block (s := S32768x2) S64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S32768x64.size a
  hwx0_7 : ∀ i : grid0.Coords, EltTy.bits .f32 = 32 ∨ (Rect.block (s := S32768x64) S64x64.size (cc0_transform_7 i) (hinb0_7 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S64x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x128x2 : Shape := ⟨3, ![32768, 128, 2]⟩
abbrev S128 : Shape := ⟨1, ![128]⟩
abbrev S32768x2 : Shape := ⟨2, ![32768, 2]⟩
abbrev S4x64 : Shape := ⟨2, ![4, 64]⟩
abbrev S64 : Shape := ⟨1, ![64]⟩
abbrev S64x64 : Shape := ⟨2, ![64, 64]⟩
abbrev S32768x1x2 : Shape := ⟨3, ![32768, 1, 2]⟩
abbrev S_ : Shape := ⟨0, ![]⟩
abbrev S32768x128 : Shape := ⟨2, ![32768, 128]⟩
abbrev S1x128 : Shape := ⟨2, ![1, 128]⟩
abbrev S32768x128x1 : Shape := ⟨3, ![32768, 128, 1]⟩
abbrev S32768x128x4 : Shape := ⟨3, ![32768, 128, 4]⟩
abbrev S32768x128x64 : Shape := ⟨3, ![32768, 128, 64]⟩
abbrev S1x1x64 : Shape := ⟨3, ![1, 1, 64]⟩
abbrev S32768x64 : Shape := ⟨2, ![32768, 64]⟩

abbrev nBuf : Space → Nat
  | .hbm => 41
  | .vmem => 0
  | .smem => 0
  | _ => 0

abbrev bufTy : (tb : Table) → Fin (tcTables nBuf tb) → BufTy
  | .hbm, ⟨0, _⟩ => ⟨S32768x128x2, .f32⟩
  | .hbm, ⟨1, _⟩ => ⟨S128, .f32⟩
  | .hbm, ⟨2, _⟩ => ⟨S32768x2, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32768x1x2, .f32⟩
  | .hbm, ⟨8, _⟩ => ⟨S32768x128x2, .f32⟩
  | .hbm, ⟨9, _⟩ => ⟨S32768x128x2, .f32⟩
  | .hbm, ⟨10, _⟩ => ⟨S32768x128x2, .f32⟩
  | .hbm, ⟨11, _⟩ => ⟨S_, .f32⟩
  | .hbm, ⟨12, _⟩ => ⟨S32768x128, .f32⟩
  | .hbm, ⟨13, _⟩ => ⟨S_, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S_, .f32⟩
  | .hbm, ⟨18, _⟩ => ⟨S32768x128, .f32⟩
  | .hbm, ⟨19, _⟩ => ⟨S32768x128, .f32⟩
  | .hbm, ⟨20, _⟩ => ⟨S1x128, .f32⟩
  | .hbm, ⟨21, _⟩ => ⟨S32768x128, .f32⟩
  | .hbm, ⟨22, _⟩ => ⟨S32768x128x1, .f32⟩
  | .hbm, ⟨23, _⟩ => ⟨S32768x128x1, .f32⟩
  | .hbm, ⟨24, _⟩ => ⟨S32768x128x4, .f32⟩
  | .hbm, ⟨25, _⟩ => ⟨S32768x128x64, .f32⟩
  | .hbm, ⟨26, _⟩ => ⟨S1x1x64, .f32⟩
  | .hbm, ⟨27, _⟩ => ⟨S32768x128x64, .f32⟩
  | .hbm, ⟨28, _⟩ => ⟨S32768x128x64, .f32⟩
  | .hbm, ⟨29, _⟩ => ⟨S_, .f32⟩
  | .hbm, ⟨30, _⟩ => ⟨S32768x128x64, .f32⟩
  | .hbm, ⟨31, _⟩ => ⟨S32768x128x64, .f32⟩
  | .hbm, ⟨32, _⟩ => ⟨S32768x128x64, .f32⟩
  | .hbm, ⟨33, _⟩ => ⟨S1x1x64, .f32⟩
  | .hbm, ⟨34, _⟩ => ⟨S32768x128x64, .f32⟩
  | .hbm, ⟨35, _⟩ => ⟨S32768x128x64, .f32⟩
  | .hbm, ⟨36, _⟩ => ⟨S_, .f32⟩
  | .hbm, ⟨37, _⟩ => ⟨S32768x128x64, .f32⟩
  | .hbm, ⟨38, _⟩ => ⟨S32768x128x64, .f32⟩
  | .hbm, ⟨39, _⟩ => ⟨S_, .f32⟩
  | .hbm, ⟨40, _⟩ => ⟨S32768x64, .f32⟩
  | _, _ => ⟨S32768x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S32768x2_S32768x1x2_0_2 : S32768x2.BroadcastsInDim S32768x1x2 (![0, 2] : Fin 2 → Fin S32768x1x2.rank)
  bcast_S32768x1x2_S32768x128x2_0_1_2 : S32768x1x2.BroadcastsInDim S32768x128x2 (![0, 1, 2] : Fin 3 → Fin S32768x128x2.rank)
  reducesTo_S32768x128x2_S32768x128_d2 : S32768x128x2.ReducesTo [2] S32768x128
  h_S_ : 0 < S_.numel
  bcast_S_S32768x128 : S_.BroadcastsInDim S32768x128 (![] : Fin 0 → Fin S32768x128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S32768x128_S32768x128x1_0_1 : S32768x128.BroadcastsInDim S32768x128x1 (![0, 1] : Fin 2 → Fin S32768x128x1.rank)
  concatenates_S32768x128x2_S32768x128x1_S32768x128x1_S32768x128x4_d2 : Shape.Concatenates [S32768x128x2, S32768x128x1, S32768x128x1] S32768x128x4 2
  bcast_S64_S1x1x64_2 : S64.BroadcastsInDim S1x1x64 (![2] : Fin 1 → Fin S1x1x64.rank)
  bcast_S1x1x64_S32768x128x64_0_1_2 : S1x1x64.BroadcastsInDim S32768x128x64 (![0, 1, 2] : Fin 3 → Fin S32768x128x64.rank)
  bcast_S_S32768x128x64 : S_.BroadcastsInDim S32768x128x64 (![] : Fin 0 → Fin S32768x128x64.rank)
  reducesTo_S32768x128x64_S32768x64_d1 : S32768x128x64.ReducesTo [1] S32768x64
  dot_S32768x128x4_S4x64_S32768x128x64_2_0_01_1_n_n_wf : DotDims.WF S32768x128x4 S4x64 S32768x128x64 [2] [0] [0, 1] [1] [] []
  dot_S32768x128x64_S64x64_S32768x128x64_2_0_01_1_n_n_wf : DotDims.WF S32768x128x64 S64x64 S32768x128x64 [2] [0] [0, 1] [1] [] []

variable [Facts₀]

def dot_S32768x128x4_S4x64_S32768x128x64_2_0_01_1_n_n : DotDims S32768x128x4 S4x64 S32768x128x64 where
  lhsContracting := [2]
  rhsContracting := [0]
  lhsNonContracting := [0, 1]
  rhsNonContracting := [1]
  lhsBatch := []
  rhsBatch := []
  wf := dot_S32768x128x4_S4x64_S32768x128x64_2_0_01_1_n_n_wf
def dot_S32768x128x64_S64x64_S32768x128x64_2_0_01_1_n_n : DotDims S32768x128x64 S64x64 S32768x128x64 where
  lhsContracting := [2]
  rhsContracting := [0]
  lhsNonContracting := [0, 1]
  rhsNonContracting := [1]
  lhsBatch := []
  rhsBatch := []
  wf := dot_S32768x128x64_S64x64_S32768x128x64_2_0_01_1_n_n_wf

class Facts : Prop extends Facts₀ where

variable [Facts]
-- ==== Proof.Spec.lean ====
/-
  The function both programs compute, written once over the extended reals.

  For one asteroid `b` and one planet `p` let `(dx, dy)` be the planet's position minus the asteroid's and
  `mass` the planet's mass.  The pair's feature vector is `(dx, dy, 1 / sqrt (dx² + dy² + ε), mass)`; a first
  affine layer (4 → 64) followed by `max · 0` gives the hidden vector, a second one (64 → 64) followed by
  `max · 0` gives the pair's message, and the result at `(b, k)` is the sum over the 128 planets of the
  messages' `k`-th entries.  Every sum below is a finite sum in the commutative monoid of the extended reals, so its
  value does not depend on an order or a grouping; no law that needs finiteness (distributivity, cancellation)
  is used anywhere, and the literals are kept as the bit patterns both programs print.
-/
import Idealize.ShloMosaic.PureOps.Ideal
import Idealize.ShloMosaic.PureOps.Ideal.Laws
import Idealize.ShloMosaic.Lib.ValueIdx

noncomputable section

namespace Cert.Pairwise

open Idealize.ShloMosaic Idealize.ShloMosaic.ValueIdx

/-- The softened reciprocal distance `1 / sqrt (dx² + dy² + ε)` of a displacement, with the programs' own
    literals for `1` and `ε` and the extended reals' conventions for the quotient and the root. -/
def invDist (dx dy : EReal) : EReal :=
  Ideal.div (Ideal.ofBits .f32 0x3F800000#32) (Ideal.sqrt (dx * dx + dy * dy + Ideal.ofBits .f32 0x358637BD#32))

/-- Hidden unit `j` of a pair: `max (dx·W₁[0,j] + dy·W₁[1,j] + invDist·W₁[2,j] + mass·W₁[3,j] + b₁[j]) 0`,
    the four products added left to right. -/
def hidden (w1 : Fin 4 → Fin 64 → EReal) (b1 : Fin 64 → EReal) (dx dy mass : EReal) (j : Fin 64) : EReal :=
  max (dx * w1 0 j + dy * w1 1 j + invDist dx dy * w1 2 j + mass * w1 3 j + b1 j) (Ideal.ofBits .f32 0x00000000#32)

/-- Entry `k` of a pair's message: `max (∑ j, hidden j · W₂[j,k] + b₂[k]) 0`. -/
def message (w1 : Fin 4 → Fin 64 → EReal) (b1 : Fin 64 → EReal) (w2 : Fin 64 → Fin 64 → EReal) (b2 : Fin 64 → EReal)
    (dx dy mass : EReal) (k : Fin 64) : EReal :=
  max ((∑ j : Fin 64, hidden w1 b1 dx dy mass j * w2 j k) + b2 k) (Ideal.ofBits .f32 0x00000000#32)

/-- The result at asteroid `b`, entry `k`: the sum over the planets of the pairs' messages, as a function of the
    seven argument arrays. -/
def total (xy : (⟨3, ![32768, 128, 2]⟩ : Shape).Idx → EReal) (pm : (⟨1, ![128]⟩ : Shape).Idx → EReal)
    (ast : (⟨2, ![32768, 2]⟩ : Shape).Idx → EReal) (W1 : (⟨2, ![4, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (b : Fin 32768) (k : Fin 64) : EReal :=
  ∑ p : Fin 128, message (fun f j => W1 (ix2 f j)) (fun j => b1 (ix1 j)) (fun j k => W2 (ix2 j k)) (fun k => b2 (ix1 k))
    (xy (ix3 b p 0) - ast (ix2 b 0)) (xy (ix3 b p 1) - ast (ix2 b 1)) (pm (ix1 p)) k

/-- The whole result array. -/
def result (xy : (⟨3, ![32768, 128, 2]⟩ : Shape).Idx → EReal) (pm : (⟨1, ![128]⟩ : Shape).Idx → EReal)
    (ast : (⟨2, ![32768, 2]⟩ : Shape).Idx → EReal) (W1 : (⟨2, ![4, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![32768, 64]⟩ : Shape).Idx → EReal :=
  fun i => total xy pm ast W1 b1 W2 b2 (i 0) (i 1)

end Cert.Pairwise

end
-- ==== Proof.LayoutReads.lean ====
/-
  The kernel body's re-layings, each read at one index with explicit coordinates.

  A block of the kernel holds 64 asteroids, 128 planets and 64 hidden units.  The body moves values between the
  shapes [64,128], [64,128,1], [64,128,64], [8192,64] and the small parameter shapes by shape casts, slices and
  broadcasts; each lemma here says which entry of the operand one entry of such a chain is.  A shape cast keeps
  the row-major position, so entry (r, p, j) of [64,128,64] is entry (128·r + p, j) of [8192,64].
-/
import Idealize.ShloMosaic.Lib.Pipeline.Value
import Idealize.ShloMosaic.Lib.ValueIdx

namespace Cert.Pairwise.Layout

open Idealize.ShloMosaic Idealize.ShloMosaic.ValueIdx

variable {α : Type}

/-- A per-pair value [64,128] given a trailing unit axis and broadcast over the 64 hidden units: entry (r, p, j) is
    the value at (r, p). -/
theorem pair_over_hidden (v : (⟨2, ![64, 128]⟩ : Shape).Idx → α)
    (h1 : (⟨2, ![64, 128]⟩ : Shape).ShapeCasts ⟨3, ![64, 128, 1]⟩)
    (h2 : (⟨3, ![64, 128, 1]⟩ : Shape).Broadcasts ⟨3, ![64, 128, 64]⟩) (r : Fin 64) (p : Fin 128) (j : Fin 64) :
    broadcastTo ⟨3, ![64, 128, 64]⟩ (shapeCast ⟨3, ![64, 128, 1]⟩ v h1) h2 (ix3 r p j) = v (ix2 r p) := by
  refine (broadcastTo_apply _ h2 (ix3 r p j) (ix3 r p (0 : Fin 1)) fun a => ?_).trans ?_
  · match a with
    | ⟨0, _⟩ => rfl
    | ⟨1, _⟩ => rfl
    | ⟨2, _⟩ => rfl
  · refine shapeCast_apply v h1 (ix3 r p (0 : Fin 1)) (ix2 r p) ?_
    rw [Shape.rowMajor_val_two, Shape.rowMajor_val_three]
    show r.val * 128 + p.val = (r.val * 128 + p.val) * 1 + 0
    omega

/-- The same for a value that already has the trailing unit axis. -/
theorem unit_over_hidden (v : (⟨3, ![64, 128, 1]⟩ : Shape).Idx → α)
    (h2 : (⟨3, ![64, 128, 1]⟩ : Shape).Broadcasts ⟨3, ![64, 128, 64]⟩) (r : Fin 64) (p : Fin 128) (j : Fin 64) :
    broadcastTo ⟨3, ![64, 128, 64]⟩ v h2 (ix3 r p j) = v (ix3 r p (0 : Fin 1)) := by
  refine broadcastTo_apply _ h2 (ix3 r p j) (ix3 r p (0 : Fin 1)) fun a => ?_
  match a with
  | ⟨0, _⟩ => rfl
  | ⟨1, _⟩ => rfl
  | ⟨2, _⟩ => rfl

/-- A vector over the hidden units [64] viewed [1,1,64] and broadcast over the pairs: entry (r, p, j) is entry j. -/
theorem vec_over_pairs (b : (⟨1, ![64]⟩ : Shape).Idx → α)
    (h1 : (⟨1, ![64]⟩ : Shape).ShapeCasts ⟨3, ![1, 1, 64]⟩)
    (h2 : (⟨3, ![1, 1, 64]⟩ : Shape).Broadcasts ⟨3, ![64, 128, 64]⟩) (r : Fin 64) (p : Fin 128) (j : Fin 64) :
    broadcastTo ⟨3, ![64, 128, 64]⟩ (shapeCast ⟨3, ![1, 1, 64]⟩ b h1) h2 (ix3 r p j) = b (ix1 j) := by
  refine (broadcastTo_apply _ h2 (ix3 r p j) (ix3 (0 : Fin 1) (0 : Fin 1) j) fun a => ?_).trans ?_
  · match a with
    | ⟨0, _⟩ => rfl
    | ⟨1, _⟩ => rfl
    | ⟨2, _⟩ => rfl
  · refine shapeCast_apply b h1 (ix3 (0 : Fin 1) (0 : Fin 1) j) (ix1 j) ?_
    rw [Shape.rowMajor_val_one, Shape.rowMajor_val_three]
    show j.val = (0 * 1 + 0) * 64 + j.val
    omega

/-- Row `f` of the [4,64] first-layer weights, sliced out as [1,64] and viewed as a vector [64]: entry j is
    entry (f, j). -/
theorem weight_row (w : (⟨2, ![4, 64]⟩ : Shape).Idx → α) (off : Fin 2 → Nat)
    (h1 : (⟨2, ![4, 64]⟩ : Shape).Slices off ⟨2, ![1, 64]⟩) (h2 : (⟨2, ![1, 64]⟩ : Shape).ShapeCasts ⟨1, ![64]⟩)
    (f : Fin 4) (hf : off 0 = f.val) (h0 : off 1 = 0) (j : Fin 64) :
    shapeCast ⟨1, ![64]⟩ (extractStridedSlice ⟨2, ![1, 64]⟩ off w h1) h2 (ix1 j) = w (ix2 f j) := by
  refine (shapeCast_apply _ h2 (ix1 j) (ix2 (0 : Fin 1) j) ?_).trans ?_
  · rw [Shape.rowMajor_val_one, Shape.rowMajor_val_two]
    show 0 * 64 + j.val = j.val
    omega
  · refine extractStridedSlice_apply off w h1 (ix2 (0 : Fin 1) j) (ix2 f j) fun a => ?_
    match a with
    | ⟨0, _⟩ => show f.val = off 0 + 0; omega
    | ⟨1, _⟩ => show j.val = off 1 + j.val; omega

/-- The slice [1,64] itself at (0, j). -/
theorem weight_row_slice (w : (⟨2, ![4, 64]⟩ : Shape).Idx → α) (off : Fin 2 → Nat)
    (h1 : (⟨2, ![4, 64]⟩ : Shape).Slices off ⟨2, ![1, 64]⟩)
    (f : Fin 4) (hf : off 0 = f.val) (h0 : off 1 = 0) (j : Fin 64) :
    extractStridedSlice ⟨2, ![1, 64]⟩ off w h1 (ix2 (0 : Fin 1) j) = w (ix2 f j) := by
  refine extractStridedSlice_apply off w h1 (ix2 (0 : Fin 1) j) (ix2 f j) fun a => ?_
  match a with
  | ⟨0, _⟩ => show f.val = off 0 + 0; omega
  | ⟨1, _⟩ => show j.val = off 1 + j.val; omega

/-- A [1,64] row viewed [64]: entry j is entry (0, j). -/
theorem row_as_vec (w : (⟨2, ![1, 64]⟩ : Shape).Idx → α) (h2 : (⟨2, ![1, 64]⟩ : Shape).ShapeCasts ⟨1, ![64]⟩) (j : Fin 64) :
    shapeCast ⟨1, ![64]⟩ w h2 (ix1 j) = w (ix2 (0 : Fin 1) j) := by
  refine shapeCast_apply _ h2 (ix1 j) (ix2 (0 : Fin 1) j) ?_
  rw [Shape.rowMajor_val_one, Shape.rowMajor_val_two]
  show 0 * 64 + j.val = j.val
  omega

/-- Coordinate `c` of the displacements [64,128,2], sliced out as [64,128,1] and viewed [64,128]: entry (r, p) is
    entry (r, p, c). -/
theorem coord_plane (d : (⟨3, ![64, 128, 2]⟩ : Shape).Idx → α) (off : Fin 3 → Nat)
    (h1 : (⟨3, ![64, 128, 2]⟩ : Shape).Slices off ⟨3, ![64, 128, 1]⟩)
    (h2 : (⟨3, ![64, 128, 1]⟩ : Shape).ShapeCasts ⟨2, ![64, 128]⟩)
    (c : Fin 2) (h00 : off 0 = 0) (h01 : off 1 = 0) (hc : off 2 = c.val) (r : Fin 64) (p : Fin 128) :
    shapeCast ⟨2, ![64, 128]⟩ (extractStridedSlice ⟨3, ![64, 128, 1]⟩ off d h1) h2 (ix2 r p) = d (ix3 r p c) := by
  refine (shapeCast_apply _ h2 (ix2 r p) (ix3 r p (0 : Fin 1)) ?_).trans ?_
  · rw [Shape.rowMajor_val_two, Shape.rowMajor_val_three]
    show (r.val * 128 + p.val) * 1 + 0 = r.val * 128 + p.val
    omega
  · refine extractStridedSlice_apply off d h1 (ix3 r p (0 : Fin 1)) (ix3 r p c) fun a => ?_
    match a with
    | ⟨0, _⟩ => show r.val = off 0 + r.val; omega
    | ⟨1, _⟩ => show p.val = off 1 + p.val; omega
    | ⟨2, _⟩ => show c.val = off 2 + 0; omega

/-- The asteroids' positions [64,2] viewed [64,1,2] and broadcast over the planets: entry (r, p, c) is entry (r, c). -/
theorem asteroid_over_planets (a : (⟨2, ![64, 2]⟩ : Shape).Idx → α)
    (h1 : (⟨2, ![64, 2]⟩ : Shape).ShapeCasts ⟨3, ![64, 1, 2]⟩)
    (h2 : (⟨3, ![64, 1, 2]⟩ : Shape).Broadcasts ⟨3, ![64, 128, 2]⟩) (r : Fin 64) (p : Fin 128) (c : Fin 2) :
    broadcastTo ⟨3, ![64, 128, 2]⟩ (shapeCast ⟨3, ![64, 1, 2]⟩ a h1) h2 (ix3 r p c) = a (ix2 r c) := by
  refine (broadcastTo_apply _ h2 (ix3 r p c) (ix3 r (0 : Fin 1) c) fun x => ?_).trans ?_
  · match x with
    | ⟨0, _⟩ => rfl
    | ⟨1, _⟩ => rfl
    | ⟨2, _⟩ => rfl
  · refine shapeCast_apply a h1 (ix3 r (0 : Fin 1) c) (ix2 r c) ?_
    rw [Shape.rowMajor_val_two, Shape.rowMajor_val_three]
    show r.val * 2 + c.val = (r.val * 1 + 0) * 2 + c.val
    omega

/-- The planets' masses [128] viewed [1,128] (twice), broadcast over the asteroids and given a trailing unit axis:
    entry (r, p, 0) is entry p. -/
theorem mass_over_asteroids (mv : (⟨1, ![128]⟩ : Shape).Idx → α)
    (h1 : (⟨1, ![128]⟩ : Shape).ShapeCasts ⟨2, ![1, 128]⟩) (h1' : (⟨2, ![1, 128]⟩ : Shape).ShapeCasts ⟨2, ![1, 128]⟩)
    (h2 : (⟨2, ![1, 128]⟩ : Shape).Broadcasts ⟨2, ![64, 128]⟩)
    (h3 : (⟨2, ![64, 128]⟩ : Shape).ShapeCasts ⟨3, ![64, 128, 1]⟩) (r : Fin 64) (p : Fin 128) :
    shapeCast ⟨3, ![64, 128, 1]⟩ (broadcastTo ⟨2, ![64, 128]⟩ (shapeCast ⟨2, ![1, 128]⟩ (shapeCast ⟨2, ![1, 128]⟩ mv h1) h1') h2) h3
      (ix3 r p (0 : Fin 1)) = mv (ix1 p) := by
  refine (shapeCast_apply _ h3 (ix3 r p (0 : Fin 1)) (ix2 r p) ?_).trans ?_
  · rw [Shape.rowMajor_val_two, Shape.rowMajor_val_three]
    show r.val * 128 + p.val = (r.val * 128 + p.val) * 1 + 0
    omega
  rw [shapeCast_self]
  refine (broadcastTo_apply _ h2 (ix2 r p) (ix2 (0 : Fin 1) p) fun x => ?_).trans ?_
  · match x with
    | ⟨0, _⟩ => rfl
    | ⟨1, _⟩ => rfl
  · refine shapeCast_apply mv h1 (ix2 (0 : Fin 1) p) (ix1 p) ?_
    rw [Shape.rowMajor_val_one, Shape.rowMajor_val_two]
    show p.val = 0 * 128 + p.val
    omega

/-- The pairs flattened: a [64,128,64] value viewed [8192,64] reads, at (128·r + p, j), the entry (r, p, j). -/
theorem pairs_flat (v : (⟨3, ![64, 128, 64]⟩ : Shape).Idx → α)
    (h : (⟨3, ![64, 128, 64]⟩ : Shape).ShapeCasts ⟨2, ![8192, 64]⟩) (r : Fin 64) (p : Fin 128) (j : Fin 64)
    (q : Fin 8192) (hq : q.val = r.val * 128 + p.val) :
    shapeCast ⟨2, ![8192, 64]⟩ v h (ix2 q j) = v (ix3 r p j) := by
  refine shapeCast_apply v h (ix2 q j) (ix3 r p j) ?_
  rw [Shape.rowMajor_val_two, Shape.rowMajor_val_three]
  show (r.val * 128 + p.val) * 64 + j.val = q.val * 64 + j.val
  rw [hq]

/-- And back: a [8192,64] value viewed [64,128,64] reads, at (r, p, j), the entry (128·r + p, j). -/
theorem pairs_unflat (v : (⟨2, ![8192, 64]⟩ : Shape).Idx → α)
    (h : (⟨2, ![8192, 64]⟩ : Shape).ShapeCasts ⟨3, ![64, 128, 64]⟩) (r : Fin 64) (p : Fin 128) (j : Fin 64)
    (q : Fin 8192) (hq : q.val = r.val * 128 + p.val) :
    shapeCast ⟨3, ![64, 128, 64]⟩ v h (ix3 r p j) = v (ix2 q j) := by
  refine shapeCast_apply v h (ix3 r p j) (ix2 q j) ?_
  rw [Shape.rowMajor_val_two, Shape.rowMajor_val_three]
  show q.val * 64 + j.val = (r.val * 128 + p.val) * 64 + j.val
  rw [hq]

/-- The second bias [64] viewed [1,64] and broadcast over the 8192 flattened pairs: entry (q, k) is entry k. -/
theorem vec_over_flat (b : (⟨1, ![64]⟩ : Shape).Idx → α)
    (h1 : (⟨1, ![64]⟩ : Shape).ShapeCasts ⟨2, ![1, 64]⟩)
    (h2 : (⟨2, ![1, 64]⟩ : Shape).Broadcasts ⟨2, ![8192, 64]⟩) (q : Fin 8192) (k : Fin 64) :
    broadcastTo ⟨2, ![8192, 64]⟩ (shapeCast ⟨2, ![1, 64]⟩ b h1) h2 (ix2 q k) = b (ix1 k) := by
  refine (broadcastTo_apply _ h2 (ix2 q k) (ix2 (0 : Fin 1) k) fun x => ?_).trans ?_
  · match x with
    | ⟨0, _⟩ => rfl
    | ⟨1, _⟩ => rfl
  · refine shapeCast_apply b h1 (ix2 (0 : Fin 1) k) (ix1 k) ?_
    rw [Shape.rowMajor_val_one, Shape.rowMajor_val_two]
    show k.val = 0 * 64 + k.val
    omega

end Cert.Pairwise.Layout
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.Payload.lean ====
/-
  What the kernel body computes on one block, entry by entry.

  A block holds 64 asteroids `r`, their 128 planets `p` and the whole parameter arrays.  The body's arithmetic is
  split into four named pieces; read at explicit coordinates they are: the planets' masses laid over the pairs, the
  fourth row of the first-layer weights, the first three products of the first layer summed, and the rest — the fourth
  product and the bias, `max · 0`, the 8192×64 by 64×64 product of the flattened pairs with the second-layer weights
  into a zero accumulator, the second bias, `max · 0` again and the sum over the planets.  Put together, entry
  (r, k) of the block's result is the sum over the planets of the pair's message as the specification states it.
-/
import proofs.«135866_j75496935129487_2_alg».proof.Proof.Gen.KernelIdeal.Skeleton
import proofs.«135866_j75496935129487_2_alg».proof.Proof.Spec
import proofs.«135866_j75496935129487_2_alg».proof.Proof.LayoutReads
import proofs.«135866_j75496935129487_2_alg».proof.Proof.LibPlainDot
import Idealize.ShloMosaic.PureOps.Ideal.Laws
import Idealize.ShloMosaic.Lib.ValueIdx

noncomputable section

namespace Cert.Pairwise.Block

open Cert.KernelIdeal Cert.KernelIdeal.Gen Idealize.ShloMosaic Idealize.ShloMosaic.ValueIdx

/-- The masses laid over the pairs: entry (r, p, 0) is planet `p`'s mass. -/
theorem mass_entry (v17 : Vec Ideal S128 .f32) (r : Fin 64) (p : Fin 128) :
    k0_pay3 (F := Ideal) v17 (ix3 r p (0 : Fin 1)) = v17 (ix1 p) := by
  unfold k0_pay3
  exact Layout.mass_over_asteroids v17 _ _ _ _ r p

/-- The fourth row of the first-layer weights. -/
theorem last_row_entry (v21 : Vec Ideal S4x64 .f32) (j : Fin 64) :
    k0_pay4 (F := Ideal) v21 (ix2 (0 : Fin 1) j) = v21 (ix2 (3 : Fin 4) j) := by
  unfold k0_pay4
  exact Layout.weight_row_slice v21 _ _ 3 rfl rfl j

/-- A vector's square root, read at an index. -/
theorem sqrt_apply {s : Shape} (a : FVec Ideal s .f32) (i : s.Idx) : sqrt a i = Ideal.sqrt (a i) := rfl

/-- The first three products of the first layer, summed left to right, at pair (r, p) and hidden unit j. -/
theorem partial_entry (v0 : Vec Ideal S64x128x2 .f32) (v1 : Vec Ideal S64x2 .f32) (v21 : Vec Ideal S4x64 .f32)
    (r : Fin 64) (p : Fin 128) (j : Fin 64) :
    k0_pay2 (F := Ideal) v0 v1 v21 (ix3 r p j)
      = (v0 (ix3 r p (0 : Fin 2)) - v1 (ix2 r (0 : Fin 2))) * v21 (ix2 (0 : Fin 4) j)
        + (v0 (ix3 r p (1 : Fin 2)) - v1 (ix2 r (1 : Fin 2))) * v21 (ix2 (1 : Fin 4) j)
        + invDist (v0 (ix3 r p (0 : Fin 2)) - v1 (ix2 r (0 : Fin 2))) (v0 (ix3 r p (1 : Fin 2)) - v1 (ix2 r (1 : Fin 2)))
            * v21 (ix2 (2 : Fin 4) j) := by
  simp only [k0_pay2, addf_apply, mulf_apply, Layout.pair_over_hidden, Layout.vec_over_pairs,
    Layout.weight_row v21 ![0, 0] _ _ 0 rfl rfl, Layout.weight_row v21 ![1, 0] _ _ 1 rfl rfl,
    Layout.weight_row v21 ![2, 0] _ _ 2 rfl rfl, divf_apply, sqrt_apply, broadcast_apply,
    Layout.coord_plane _ ![0, 0, 0] _ _ 0 rfl rfl rfl, Layout.coord_plane _ ![0, 0, 1] _ _ 1 rfl rfl rfl,
    subf_apply, Layout.asteroid_over_planets]
  rfl

/-- A sum over the planets' axis of a [64,128,64] value, read at (r, k): the sum over `p` of the entries (r, p, k). -/
theorem planet_sum (src : FVec Ideal ⟨3, ![64, 128, 64]⟩ .f32) (h : (⟨3, ![64, 128, 64]⟩ : Shape).Reduces [1] ⟨2, ![64, 64]⟩)
    (hφ : FKind.Formats .f32) (hacc : (0x00000000#32 : BitVec 32) = FKind.add.neutral .f32 hφ) (r k : Fin 64) :
    multiReduction .add [1] ⟨2, ![64, 64]⟩ src 0x00000000#32 h hφ hacc (ix2 r k) = ∑ p : Fin 128, src (ix3 r p k) := by
  refine (Ideal.multiReduction_add_single src _ h hφ hacc (ix2 r k)).trans ?_
  refine Finset.sum_congr rfl fun p _ => congrArg src ?_
  funext c
  apply Fin.ext
  match c with
  | ⟨0, _⟩ => rfl
  | ⟨1, _⟩ => rfl
  | ⟨2, _⟩ => rfl

/-- The second-layer product's dimension record is the plain rows-by-columns one. -/
theorem dot_plain : dot_S8192x64_S64x64_S8192x64_1_0_0_1_n_n = DotDims.plain 8192 64 64 := rfl

/-- The rest of the body at asteroid `r` and output entry `k`, over the three pieces above and the loaded parameters:
    the fourth product and the first bias are added, `max · 0` taken, the pairs flattened to 8192 rows and multiplied by
    the second-layer weights into a zero accumulator (a plain sum over the 64 hidden units), the second bias added,
    `max · 0` taken, the rows unflattened and the planets summed. -/
theorem out_entry (v22 : Vec Ideal S64 .f32) (v45 : FVec Ideal S64x128x64 .f32) (v46 : FVec Ideal S64x128x1 .f32)
    (v47 : FVec Ideal S1x64 .f32) (v61 : Vec Ideal S64x64 .f32) (v64 : Vec Ideal S64 .f32) (r : Fin 64) (k : Fin 64) :
    k0_pay1 (F := Ideal) v22 v45 v46 v47 v61 v64 (ix2 r k)
      = ∑ p : Fin 128, max ((∑ j : Fin 64,
            max (v45 (ix3 r p j) + v46 (ix3 r p (0 : Fin 1)) * v47 (ix2 (0 : Fin 1) j) + v22 (ix1 j))
                (Ideal.ofBits .f32 0x00000000#32) * v61 (ix2 j k)) + v64 (ix1 k)) (Ideal.ofBits .f32 0x00000000#32) := by
  simp only [k0_pay1]
  refine (planet_sum _ _ _ _ r k).trans ?_
  refine Finset.sum_congr rfl fun p _ => ?_
  have hq : r.val * 128 + p.val < 8192 := by have := r.isLt; have := p.isLt; omega
  rw [Layout.pairs_unflat _ _ r p k ⟨r.val * 128 + p.val, hq⟩ rfl]
  simp only [maximumf_apply, addf_apply, matmul, LibPlainDot.matmul_zero_apply _ dot_plain, truncf_apply,
    Layout.pairs_flat _ _ r p _ ⟨r.val * 128 + p.val, hq⟩ rfl, mulf_apply, broadcast_apply, Layout.vec_over_flat,
    Layout.unit_over_hidden, Layout.vec_over_pairs, Layout.row_as_vec]
  rfl

/-- The four pieces put together: entry (r, k) of the block's result is the sum over the planets of the pairs'
    messages, a pair's displacement being the planet's position minus the asteroid's. -/
theorem block_entry (x0 : Vec Ideal S64x128x2 .f32) (x1 : Vec Ideal S64x2 .f32) (x2 : Vec Ideal S128 .f32)
    (x3 : Vec Ideal S4x64 .f32) (x4 : Vec Ideal S64 .f32) (x5 : Vec Ideal S64x64 .f32) (x6 : Vec Ideal S64 .f32)
    (r k : Fin 64) :
    k0_pay1 (F := Ideal) x4 (k0_pay2 x0 x1 x3) (k0_pay3 x2) (k0_pay4 x3) x5 x6 (ix2 r k)
      = ∑ p : Fin 128, message (fun f j => x3 (ix2 f j)) (fun j => x4 (ix1 j)) (fun j k => x5 (ix2 j k)) (fun k => x6 (ix1 k))
          (x0 (ix3 r p (0 : Fin 2)) - x1 (ix2 r (0 : Fin 2))) (x0 (ix3 r p (1 : Fin 2)) - x1 (ix2 r (1 : Fin 2))) (x2 (ix1 p)) k := by
  rw [out_entry]
  simp only [partial_entry, mass_entry, last_row_entry]
  rfl

end Cert.Pairwise.Block

end
-- ==== Proof.Blocks.lean ====
/-
  From the blocks to the whole result array.

  The grid has 512 points; point `t` is given rows 64·t … 64·t + 63 of the planets' positions and of the
  asteroids' positions, the whole of every parameter array, and writes rows 64·t … 64·t + 63 of the result.  So what
  point `t` writes back is block `t` of the specification's array of the argument arrays, the 512 blocks cover the
  result array, and the array after the run is the specification's.
-/
import proofs.«135866_j75496935129487_2_alg».proof.Proof.Gen.KernelIdeal.Frame
import proofs.«135866_j75496935129487_2_alg».proof.Proof.Gen.KernelIdeal.Value
import proofs.«135866_j75496935129487_2_alg».proof.Proof.Payload
import proofs.«135866_j75496935129487_2_alg».proof.Proof.Spec
import Idealize.ShloMosaic.Lib.Pipeline.Value
import Idealize.ShloMosaic.Lib.ValueIdx

noncomputable section

namespace Cert.Pairwise.Kernel

open Cert.KernelIdeal Cert.KernelIdeal.Gen Idealize.ShloMosaic Idealize.ShloMosaic.TcCoe Idealize.SL.Sem
open Idealize.ShloMosaic.ValueIdx
open Idealize.ShloMosaic.Pipeline (Dat)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at row `r` and entry `k`, when row `r` of the two position blocks is
    row `b` of the position arrays and the parameter blocks are the parameter arrays: the specification at (b, k). -/
theorem block_result (x0 : Vec Ideal S64x128x2 .f32) (x1 : Vec Ideal S64x2 .f32) (x2 : Vec Ideal S128 .f32)
    (x3 : Vec Ideal S4x64 .f32) (x4 : Vec Ideal S64 .f32) (x5 : Vec Ideal S64x64 .f32) (x6 : Vec Ideal S64 .f32)
    (XY : S32768x128x2.Idx → EReal) (PM : S128.Idx → EReal) (AST : S32768x2.Idx → EReal) (W1 : S4x64.Idx → EReal)
    (B1 : S64.Idx → EReal) (W2 : S64x64.Idx → EReal) (B2 : S64.Idx → EReal) (b : Fin 32768) (r : Fin 64)
    (h0 : ∀ (p : Fin 128) (d : Fin 2), x0 (ix3 r p d) = XY (ix3 b p d)) (h1 : ∀ d : Fin 2, x1 (ix2 r d) = AST (ix2 b d))
    (h2 : ∀ p : Fin 128, x2 (ix1 p) = PM (ix1 p)) (h3 : ∀ (f : Fin 4) (j : Fin 64), x3 (ix2 f j) = W1 (ix2 f j))
    (h4 : ∀ j : Fin 64, x4 (ix1 j) = B1 (ix1 j)) (h5 : ∀ j k : Fin 64, x5 (ix2 j k) = W2 (ix2 j k))
    (h6 : ∀ k : Fin 64, x6 (ix1 k) = B2 (ix1 k)) (k : Fin 64) :
    out0_7 (F := Ideal) x0 x1 x2 x3 x4 x5 x6 (ix2 r k) = total XY PM AST W1 B1 W2 B2 b k := by
  unfold out0_7
  rw [View.canon_unit_zero hz2]
  simp only [View.ld_unit_zero (S := S64x128x2) hz3, View.ld_unit_zero (S := S64x2) hz2, View.ld_unit_zero (S := S128) hz1,
    View.ld_unit_zero (S := S4x64) hz2, View.ld_unit_zero (S := S64) hz1, View.ld_unit_zero (S := S64x64) hz2]
  rw [Block.block_entry]
  unfold total
  simp only [h0, h1, h2, h3, h4, h5, h6]

/-- The printed index maps, decided over the 512 points: the two position windows and the output window are at block
    `t` on their first axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

variable (m : (ℓ : Loc nD τ sig) → Buf (Elt Ideal) ℓ) (ρ : Dev nD → PrngReg)

/-- Row `r` of the planets' block at point `t` is row 64·t + r of the planets' positions. -/
theorem xy_block (c : Dev nD) (t : Fin cfg0.N) (r : Fin 64) (p : Fin 128) (d : Fin 2) (b : Fin 32768)
    (hb : b.val = t.val * 64 + r.val) :
    (iblk m c 0 t : Vec Ideal S64x128x2 .f32) (ix3 r p d)
      = (m ((c : Thread nD τ).loc main_arg0) : S32768x128x2.Idx → EReal) (ix3 b p d) := by
  obtain ⟨e0, e1, e2, -⟩ := idx_facts t
  unfold iblk
  rw [View.read_apply]
  show V m c main_arg0 _ = m (c.tc.loc main_arg0) _
  unfold V
  refine congrArg _ ?_
  funext a
  apply Fin.ext
  match a with
  | ⟨0, _⟩ => show win0_0.index t 0 * 64 + 1 * r.val = b.val; rw [e0, hb]; omega
  | ⟨1, _⟩ => show win0_0.index t 1 * 128 + 1 * p.val = p.val; rw [e1]; omega
  | ⟨2, _⟩ => show win0_0.index t 2 * 2 + 1 * d.val = d.val; rw [e2]; omega

/-- Row `r` of the asteroids' block at point `t` is row 64·t + r of the asteroids' positions. -/
theorem ast_block (c : Dev nD) (t : Fin cfg0.N) (r : Fin 64) (d : Fin 2) (b : Fin 32768)
    (hb : b.val = t.val * 64 + r.val) :
    (iblk m c 1 t : Vec Ideal S64x2 .f32) (ix2 r d)
      = (m ((c : Thread nD τ).loc main_arg2) : S32768x2.Idx → EReal) (ix2 b d) := by
  obtain ⟨-, -, -, e0, e1, -⟩ := idx_facts t
  unfold iblk
  rw [View.read_apply]
  show V m c main_arg2 _ = m (c.tc.loc main_arg2) _
  unfold V
  refine congrArg _ ?_
  funext a
  apply Fin.ext
  match a with
  | ⟨0, _⟩ => show win0_1.index t 0 * 64 + 1 * r.val = b.val; rw [e0, hb]; omega
  | ⟨1, _⟩ => show win0_1.index t 1 * 2 + 1 * d.val = d.val; rw [e1]; omega

/-- The masses' block is the masses' array. -/
theorem pm_block (c : Dev nD) (t : Fin cfg0.N) (p : Fin 128) :
    (iblk m c 2 t : Vec Ideal S128 .f32) (ix1 p) = (m ((c : Thread nD τ).loc main_arg1) : S128.Idx → EReal) (ix1 p) := by
  obtain ⟨-, -, -, -, -, e0, -⟩ := idx_facts t
  unfold iblk
  rw [View.read_apply]
  show V m c main_arg1 _ = m (c.tc.loc main_arg1) _
  unfold V
  refine congrArg _ ?_
  funext a
  apply Fin.ext
  match a with
  | ⟨0, _⟩ => show win0_2.index t 0 * 128 + 1 * p.val = p.val; rw [e0]; omega

/-- The first-layer weights' block is the weights' array. -/
theorem w1_block (c : Dev nD) (t : Fin cfg0.N) (f : Fin 4) (j : Fin 64) :
    (iblk m c 3 t : Vec Ideal S4x64 .f32) (ix2 f j) = (m ((c : Thread nD τ).loc main_arg3) : S4x64.Idx → EReal) (ix2 f j) := by
  obtain ⟨-, -, -, -, -, -, e0, e1, -⟩ := idx_facts t
  unfold iblk
  rw [View.read_apply]
  show V m c main_arg3 _ = m (c.tc.loc main_arg3) _
  unfold V
  refine congrArg _ ?_
  funext a
  apply Fin.ext
  match a with
  | ⟨0, _⟩ => show win0_3.index t 0 * 4 + 1 * f.val = f.val; rw [e0]; omega
  | ⟨1, _⟩ => show win0_3.index t 1 * 64 + 1 * j.val = j.val; rw [e1]; omega

/-- The first bias's block is the bias array. -/
theorem b1_block (c : Dev nD) (t : Fin cfg0.N) (j : Fin 64) :
    (iblk m c 4 t : Vec Ideal S64 .f32) (ix1 j) = (m ((c : Thread nD τ).loc main_arg4) : S64.Idx → EReal) (ix1 j) := by
  obtain ⟨-, -, -, -, -, -, -, -, e0, -⟩ := idx_facts t
  unfold iblk
  rw [View.read_apply]
  show V m c main_arg4 _ = m (c.tc.loc main_arg4) _
  unfold V
  refine congrArg _ ?_
  funext a
  apply Fin.ext
  match a with
  | ⟨0, _⟩ => show win0_4.index t 0 * 64 + 1 * j.val = j.val; rw [e0]; omega

/-- The second-layer weights' block is the weights' array. -/
theorem w2_block (c : Dev nD) (t : Fin cfg0.N) (j k : Fin 64) :
    (iblk m c 5 t : Vec Ideal S64x64 .f32) (ix2 j k) = (m ((c : Thread nD τ).loc main_arg5) : S64x64.Idx → EReal) (ix2 j k) := by
  obtain ⟨-, -, -, -, -, -, -, -, -, e0, e1, -⟩ := idx_facts t
  unfold iblk
  rw [View.read_apply]
  show V m c main_arg5 _ = m (c.tc.loc main_arg5) _
  unfold V
  refine congrArg _ ?_
  funext a
  apply Fin.ext
  match a with
  | ⟨0, _⟩ => show win0_5.index t 0 * 64 + 1 * j.val = j.val; rw [e0]; omega
  | ⟨1, _⟩ => show win0_5.index t 1 * 64 + 1 * k.val = k.val; rw [e1]; omega

/-- The second bias's block is the bias array. -/
theorem b2_block (c : Dev nD) (t : Fin cfg0.N) (k : Fin 64) :
    (iblk m c 6 t : Vec Ideal S64 .f32) (ix1 k) = (m ((c : Thread nD τ).loc main_arg6) : S64.Idx → EReal) (ix1 k) := by
  obtain ⟨-, -, -, -, -, -, -, -, -, -, -, e0, -⟩ := idx_facts t
  unfold iblk
  rw [View.read_apply]
  show V m c main_arg6 _ = m (c.tc.loc main_arg6) _
  unfold V
  refine congrArg _ ?_
  funext a
  apply Fin.ext
  match a with
  | ⟨0, _⟩ => show win0_6.index t 0 * 64 + 1 * k.val = k.val; rw [e0]; omega

/-- The specification's array of the argument arrays as launched. -/
abbrev final (c : Dev nD) : Buf (Elt Ideal) ((c : Thread nD τ).loc main_v0) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of that array. -/
theorem flushed_eq (c : Dev nD) (t : Fin cfg0.N) :
    (dats m 0 c).flushed 7 t = ((cfg0.win 7).blk t).view.read (Elt Ideal) (final m c) := by
  obtain ⟨-, -, -, -, -, -, -, -, -, -, -, -, e0, e1⟩ := idx_facts t
  have ht : t.val < 512 := Nat.lt_of_lt_of_eq t.isLt (show cfg0.N = 512 from N_0)
  rw [Cert.KernelIdeal.Value.flushed7]
  funext y
  obtain ⟨r, k, rfl⟩ : ∃ (r k : Fin 64), (y : S64x64.Idx) = ix2 r k := ⟨y 0, y 1, eq_ix2 y⟩
  have hb : t.val * 64 + r.val < 32768 := by have := r.isLt; omega
  rw [View.read_apply]
  have hemb : ((cfg0.win 7).blk t).view.emb (ix2 r k) = (ix2 (⟨t.val * 64 + r.val, hb⟩ : Fin 32768) k : S32768x64.Idx) := by
    funext a
    apply Fin.ext
    match a with
    | ⟨0, _⟩ => show win0_7.index t 0 * 64 + 1 * r.val = t.val * 64 + r.val; rw [e0]; omega
    | ⟨1, _⟩ => show win0_7.index t 1 * 64 + 1 * k.val = k.val; rw [e1]; omega
  rw [hemb]
  show out0_7 (iblk m c 0 t) (iblk m c 1 t) (iblk m c 2 t) (iblk m c 3 t) (iblk m c 4 t) (iblk m c 5 t) (iblk m c 6 t) (ix2 r k)
    = total _ _ _ _ _ _ _ (⟨t.val * 64 + r.val, hb⟩ : Fin 32768) k
  exact block_result _ _ _ _ _ _ _ _ _ _ _ _ _ _ ⟨t.val * 64 + r.val, hb⟩ r
    (fun p d => xy_block m c t r p d _ rfl) (fun d => ast_block m c t r d _ rfl) (fun p => pm_block m c t p)
    (fun f j => w1_block m c t f j) (fun j => b1_block m c t j) (fun j k => w2_block m c t j k) (fun k => b2_block m c t k) k

/-- An index of the result array is in point `t`'s block iff each coordinate is in the block's range on its axis. -/
theorem mem_blk (t : Fin cfg0.N) (i : S32768x64.Idx) :
    i ∈ ((cfg0.win 7).blk t).view.set ↔ ∀ a : Fin 2, win0_7.index t a * S64x64.size a ≤ (i a).val ∧ (i a).val < win0_7.index t a * S64x64.size a + S64x64.size a := by
  show i ∈ ((View.whole main_v0).slice (win0_7.rect t)).set ↔ _
  rw [View.set_slice_whole, Rect.mem_set_unit]
  exact Iff.rfl

/-- Every index of the result array is in some point's block: row `i₀` is in block `i₀ / 64`. -/
theorem cover (i : S32768x64.Idx) : ∃ t : Fin cfg0.N, (cfg0.win 7).flush t = true ∧ i ∈ ((cfg0.win 7).blk t).view.set := by
  have hi0 : (i 0).val < 32768 := (i 0).isLt
  have hi1 : (i 1).val < 64 := (i 1).isLt
  have hN : cfg0.N = 512 := N_0
  let t : Fin cfg0.N := ⟨(i 0).val / 64, by rw [hN]; omega⟩
  obtain ⟨-, -, -, -, -, -, -, -, -, -, -, -, e0, e1⟩ := idx_facts t
  refine ⟨t, flush0_7 t, ?_⟩
  rw [mem_blk]
  intro a
  match a with
  | ⟨0, _⟩ =>
    show win0_7.index t 0 * 64 ≤ (i 0).val ∧ (i 0).val < win0_7.index t 0 * 64 + 64
    rw [e0]
    show (i 0).val / 64 * 64 ≤ (i 0).val ∧ (i 0).val < (i 0).val / 64 * 64 + 64
    omega
  | ⟨1, _⟩ =>
    show win0_7.index t 1 * 64 ≤ (i 1).val ∧ (i 1).val < win0_7.index t 1 * 64 + 64
    rw [e1]
    omega

/-- The result array after the run is the specification's. -/
theorem final_eq (c : Dev nD) : (dats m 0 c).arrAt 7 cfg0.N = final m c :=
  (dats m 0 c).arrAt_eq_of_cover 7 (final m c) (fun t _ => flushed_eq m c t) cover

/-- The run, read: the result array at the specification's array of the arguments, the arguments unchanged. -/
theorem run : θ_run defs (onTc (τ := τ) (main (F := Ideal))) ⟨m, fun _ => 0, ρ⟩ fun r => ∀ c : Dev nD,
      r.2.mem ((c : Thread nD τ).loc main_v0) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_eq m c), (h c).2⟩)
    (Cert.KernelIdeal.Value.run_blocks m ρ)

end Cert.Pairwise.Kernel

end
-- ==== Proof.RefSide.lean ====
/-
  The reference program, stage by stage at explicit coordinates, is the specification.

  The reference forms the displacements, sums their squares over the coordinate axis (an initial zero plus two
  terms), adds ε, takes the root and the reciprocal, joins displacements, reciprocal distance and mass into a
  feature vector of length 4 by a concatenation along the last axis, contracts it with the first-layer weights (a
  sum over four terms, written out left to right), adds the bias, takes `max · 0`, contracts with the second-layer
  weights, adds the bias, takes `max · 0` and sums over the planets from an initial zero.  The only facts used
  about the extended reals are `0 + x = x` and the unfolding of a sum over two and over four indices.
-/
import proofs.«135866_j75496935129487_2_alg».proof.Proof.Gen.ReferenceIdeal.Read
import proofs.«135866_j75496935129487_2_alg».proof.Proof.Spec
import Idealize.ShloMosaic.Lib.Pipeline.Value
import Idealize.ShloMosaic.Lib.ValueIdx
import Idealize.ShloMosaic.PureOps.Ideal.Laws

noncomputable section

namespace Cert.Pairwise.Ref

open Cert.ReferenceIdeal Cert.ReferenceIdeal.Gen Cert.ReferenceIdeal.Read Idealize.ShloMosaic Idealize.ShloMosaic.ValueIdx

/-- A concatenation of a [·,·,2] piece and two [·,·,1] pieces along the last axis, read at the four positions of that
    axis: the first piece's two entries, then the second piece's, then the third's. -/
theorem features_apply {α : Type} (X : S32768x128x2.Idx → α) (Y Z : S32768x128x1.Idx → α)
    (h : Shape.Concatenates [S32768x128x2, S32768x128x1, S32768x128x1] S32768x128x4 2) (b : Fin 32768) (p : Fin 128) :
    concatenate S32768x128x4 2 [⟨S32768x128x2, X⟩, ⟨S32768x128x1, Y⟩, ⟨S32768x128x1, Z⟩] h (ix3 b p (0 : Fin 4)) = X (ix3 b p (0 : Fin 2))
    ∧ concatenate S32768x128x4 2 [⟨S32768x128x2, X⟩, ⟨S32768x128x1, Y⟩, ⟨S32768x128x1, Z⟩] h (ix3 b p (1 : Fin 4)) = X (ix3 b p (1 : Fin 2))
    ∧ concatenate S32768x128x4 2 [⟨S32768x128x2, X⟩, ⟨S32768x128x1, Y⟩, ⟨S32768x128x1, Z⟩] h (ix3 b p (2 : Fin 4)) = Y (ix3 b p (0 : Fin 1))
    ∧ concatenate S32768x128x4 2 [⟨S32768x128x2, X⟩, ⟨S32768x128x1, Y⟩, ⟨S32768x128x1, Z⟩] h (ix3 b p (3 : Fin 4)) = Z (ix3 b p (0 : Fin 1)) := by
  refine ⟨?_, ?_, ?_, ?_⟩
  · refine concatenate_apply_piece (t := S32768x128x4) (2 : Fin 3) [⟨S32768x128x2, X⟩, ⟨S32768x128x1, Y⟩, ⟨S32768x128x1, Z⟩] h (ix3 b p (0 : Fin 4)) 0 (by show (0 : Nat) < 3; omega) S32768x128x2 X rfl rfl 0 rfl
      (ix3 b p (0 : Fin 2)) (fun a ha => ?_) rfl
    match a with
    | ⟨0, _⟩ => rfl
    | ⟨1, _⟩ => rfl
    | ⟨2, _⟩ => exact absurd rfl ha
  · refine concatenate_apply_piece (t := S32768x128x4) (2 : Fin 3) [⟨S32768x128x2, X⟩, ⟨S32768x128x1, Y⟩, ⟨S32768x128x1, Z⟩] h (ix3 b p (1 : Fin 4)) 0 (by show (0 : Nat) < 3; omega) S32768x128x2 X rfl rfl 0 rfl
      (ix3 b p (1 : Fin 2)) (fun a ha => ?_) rfl
    match a with
    | ⟨0, _⟩ => rfl
    | ⟨1, _⟩ => rfl
    | ⟨2, _⟩ => exact absurd rfl ha
  · refine concatenate_apply_piece (t := S32768x128x4) (2 : Fin 3) [⟨S32768x128x2, X⟩, ⟨S32768x128x1, Y⟩, ⟨S32768x128x1, Z⟩] h (ix3 b p (2 : Fin 4)) 1 (by show (1 : Nat) < 3; omega) S32768x128x1 Y rfl rfl 2 rfl
      (ix3 b p (0 : Fin 1)) (fun a ha => ?_) rfl
    match a with
    | ⟨0, _⟩ => rfl
    | ⟨1, _⟩ => rfl
    | ⟨2, _⟩ => exact absurd rfl ha
  · refine concatenate_apply_piece (t := S32768x128x4) (2 : Fin 3) [⟨S32768x128x2, X⟩, ⟨S32768x128x1, Y⟩, ⟨S32768x128x1, Z⟩] h (ix3 b p (3 : Fin 4)) 2 (by show (2 : Nat) < 3; omega) S32768x128x1 Z rfl rfl 3 rfl
      (ix3 b p (0 : Fin 1)) (fun a ha => ?_) rfl
    match a with
    | ⟨0, _⟩ => rfl
    | ⟨1, _⟩ => rfl
    | ⟨2, _⟩ => exact absurd rfl ha

variable (x0 : FVec Ideal S32768x128x2 .f32) (x1 : FVec Ideal S128 .f32) (x2 : FVec Ideal S32768x2 .f32)
  (x3 : FVec Ideal S4x64 .f32) (x4 : FVec Ideal S64 .f32) (x5 : FVec Ideal S64x64 .f32) (x6 : FVec Ideal S64 .f32)

/-- The displacement of planet `p` from asteroid `b`, coordinate `d`. -/
theorem disp_entry (b : Fin 32768) (p : Fin 128) (d : Fin 2) :
    val_main_v2 (F := Ideal) x0 x2 (ix3 b p d) = x0 (ix3 b p d) - x2 (ix2 b d) := by
  have e : idx_main_v0 (idx_main_v1 (ix3 b p d)) = ix2 b d :=
    funext fun a => Fin.ext (by match a with | ⟨0, _⟩ => rfl | ⟨1, _⟩ => rfl)
  rw [val_main_v2_apply, val_main_v1_apply, val_main_v0_apply, e]
  rfl

/-- The reciprocal distance of the pair (b, p). -/
theorem inv_entry (b : Fin 32768) (p : Fin 128) :
    val_main_v9 (F := Ideal) x0 x2 (ix2 b p)
      = invDist (x0 (ix3 b p (0 : Fin 2)) - x2 (ix2 b (0 : Fin 2))) (x0 (ix3 b p (1 : Fin 2)) - x2 (ix2 b (1 : Fin 2))) := by
  have e0 : idx_main_v4 (ix2 b p) (0 : Fin 2) = ix3 b p (0 : Fin 2) :=
    funext fun a => Fin.ext (by match a with | ⟨0, _⟩ => rfl | ⟨1, _⟩ => rfl | ⟨2, _⟩ => rfl)
  have e1 : idx_main_v4 (ix2 b p) (1 : Fin 2) = ix3 b p (1 : Fin 2) :=
    funext fun a => Fin.ext (by match a with | ⟨0, _⟩ => rfl | ⟨1, _⟩ => rfl | ⟨2, _⟩ => rfl)
  rw [val_main_v9_apply, val_main_v8_apply, val_main_cst_1_apply, val_main_v7_apply, val_main_v6_apply, val_main_v4_apply,
    val_main_v5_apply, val_main_cst_0_apply, val_main_cst_apply, Fin.sum_univ_two, e0, e1, val_main_v3_apply, val_main_v3_apply,
    disp_entry, disp_entry]
  simp only [Ideal.hostDivf_def, Ideal.hostUnary_sqrt_def, Ideal.addf_def, Ideal.mulf_def, Ideal.ofBits_def,
    Ideal.ofBits_zero_f32, zero_add]
  rfl

/-- The mass of planet `p`, laid over the asteroids. -/
theorem mass_entry (b : Fin 32768) (p : Fin 128) : val_main_v11 (F := Ideal) x1 (ix2 b p) = x1 (ix1 p) := by
  have e : idx_main_v10 (idx_main_v11 (ix2 b p)) = ix1 p :=
    funext fun a => Fin.ext (by match a with | ⟨0, _⟩ => rfl)
  rw [val_main_v11_apply, val_main_v10_apply, e]

/-- The four features of the pair (b, p). -/
theorem feature_entries (b : Fin 32768) (p : Fin 128) :
    val_main_v14 (F := Ideal) x0 x1 x2 (ix3 b p (0 : Fin 4)) = x0 (ix3 b p (0 : Fin 2)) - x2 (ix2 b (0 : Fin 2))
    ∧ val_main_v14 (F := Ideal) x0 x1 x2 (ix3 b p (1 : Fin 4)) = x0 (ix3 b p (1 : Fin 2)) - x2 (ix2 b (1 : Fin 2))
    ∧ val_main_v14 (F := Ideal) x0 x1 x2 (ix3 b p (2 : Fin 4))
        = invDist (x0 (ix3 b p (0 : Fin 2)) - x2 (ix2 b (0 : Fin 2))) (x0 (ix3 b p (1 : Fin 2)) - x2 (ix2 b (1 : Fin 2)))
    ∧ val_main_v14 (F := Ideal) x0 x1 x2 (ix3 b p (3 : Fin 4)) = x1 (ix1 p) := by
  have e12 : idx_main_v12 (ix3 b p (0 : Fin 1)) = ix2 b p :=
    funext fun a => Fin.ext (by match a with | ⟨0, _⟩ => rfl | ⟨1, _⟩ => rfl)
  have e13 : idx_main_v13 (ix3 b p (0 : Fin 1)) = ix2 b p :=
    funext fun a => Fin.ext (by match a with | ⟨0, _⟩ => rfl | ⟨1, _⟩ => rfl)
  obtain ⟨f0, f1, f2, f3⟩ := features_apply (val_main_v2 (F := Ideal) x0 x2) (val_main_v12 (F := Ideal) x0 x2)
    (val_main_v13 (F := Ideal) x1) concatenates_S32768x128x2_S32768x128x1_S32768x128x1_S32768x128x4_d2 b p
  unfold val_main_v14
  refine ⟨f0.trans (disp_entry x0 x2 b p 0), f1.trans (disp_entry x0 x2 b p 1), f2.trans ?_, f3.trans ?_⟩
  · rw [val_main_v12_apply, e12, inv_entry]
  · rw [val_main_v13_apply, e13, mass_entry]

/-- Hidden unit `j` of the pair (b, p). -/
theorem hidden_entry (b : Fin 32768) (p : Fin 128) (j : Fin 64) :
    val_main_v19 (F := Ideal) x0 x1 x2 x3 x4 (ix3 b p j)
      = hidden (fun f j => x3 (ix2 f j)) (fun j => x4 (ix1 j))
          (x0 (ix3 b p (0 : Fin 2)) - x2 (ix2 b (0 : Fin 2))) (x0 (ix3 b p (1 : Fin 2)) - x2 (ix2 b (1 : Fin 2))) (x1 (ix1 p)) j := by
  have el : ∀ f : Fin 4, lidx_main_v15 (ix3 b p j) f = ix3 b p f := fun f =>
    funext fun a => Fin.ext (by match a with | ⟨0, _⟩ => rfl | ⟨1, _⟩ => rfl | ⟨2, _⟩ => rfl)
  have er : ∀ f : Fin 4, ridx_main_v15 (ix3 b p j) f = ix2 f j := fun f =>
    funext fun a => Fin.ext (by match a with | ⟨0, _⟩ => rfl | ⟨1, _⟩ => rfl)
  have eb : idx_main_v16 (idx_main_v17 (ix3 b p j)) = ix1 j :=
    funext fun a => Fin.ext (by match a with | ⟨0, _⟩ => rfl)
  obtain ⟨f0, f1, f2, f3⟩ := feature_entries x0 x1 x2 b p
  rw [val_main_v19_apply, val_main_v18_apply, val_main_v15_apply, val_main_v17_apply, val_main_v16_apply,
    val_main_call0_v0_apply, val_main_call0_cst_apply, Fin.sum_univ_four, el, el, el, el, er, er, er, er, eb, f0, f1, f2, f3]
  rfl

/-- Entry `k` of the message of the pair (b, p). -/
theorem message_entry (b : Fin 32768) (p : Fin 128) (k : Fin 64) :
    val_main_v24 (F := Ideal) x0 x1 x2 x3 x4 x5 x6 (ix3 b p k)
      = message (fun f j => x3 (ix2 f j)) (fun j => x4 (ix1 j)) (fun j k => x5 (ix2 j k)) (fun k => x6 (ix1 k))
          (x0 (ix3 b p (0 : Fin 2)) - x2 (ix2 b (0 : Fin 2))) (x0 (ix3 b p (1 : Fin 2)) - x2 (ix2 b (1 : Fin 2))) (x1 (ix1 p)) k := by
  have el : ∀ j : Fin 64, lidx_main_v20 (ix3 b p k) j = ix3 b p j := fun j =>
    funext fun a => Fin.ext (by match a with | ⟨0, _⟩ => rfl | ⟨1, _⟩ => rfl | ⟨2, _⟩ => rfl)
  have er : ∀ j : Fin 64, ridx_main_v20 (ix3 b p k) j = ix2 j k := fun j =>
    funext fun a => Fin.ext (by match a with | ⟨0, _⟩ => rfl | ⟨1, _⟩ => rfl)
  have eb : idx_main_v21 (idx_main_v22 (ix3 b p k)) = ix1 k :=
    funext fun a => Fin.ext (by match a with | ⟨0, _⟩ => rfl)
  rw [val_main_v24_apply, val_main_v23_apply, val_main_v20_apply, val_main_v22_apply, val_main_v21_apply,
    val_main_call1_v0_apply, val_main_call1_cst_apply, eb]
  simp only [el, er, hidden_entry]
  rfl

/-- The reference's result array is the specification's. -/
theorem result_eq :
    val_main_v25 (F := Ideal) x0 x1 x2 x3 x4 x5 x6 = result x0 x1 x2 x3 x4 x5 x6 := by
  funext i
  obtain ⟨b, k, rfl⟩ : ∃ (b : Fin 32768) (k : Fin 64), i = ix2 b k := ⟨i 0, i 1, eq_ix2 i⟩
  have e : ∀ p : Fin 128, idx_main_v25 (ix2 b k) p = ix3 b p k := fun p =>
    funext fun a => Fin.ext (by match a with | ⟨0, _⟩ => rfl | ⟨1, _⟩ => rfl | ⟨2, _⟩ => rfl)
  rw [val_main_v25_apply, val_main_cst_2_apply]
  simp only [e, message_entry, Ideal.ofBits_def, Ideal.ofBits_zero_f32, zero_add]
  rfl

end Cert.Pairwise.Ref

end
-- ==== Proof.lean ====
/-
  The certificate's five claims for the pairwise-interaction kernel and its reference.

  Both programs compute, for every asteroid `b` and output entry `k`, the sum over the 128 planets `p` of
  `max (∑ⱼ hⱼ(b,p) · W₂[j,k] + b₂[k]) 0`, where `hⱼ(b,p) = max (dx·W₁[0,j] + dy·W₁[1,j] + ρ·W₁[2,j] + mass_p·W₁[3,j] + b₁[j]) 0`,
  `(dx, dy)` is planet `p`'s position minus asteroid `b`'s and `ρ = 1 / sqrt (dx² + dy² + ε)`.  The kernel works on
  blocks of 64 asteroids and writes the first layer as four broadcast products added left to right and the second as
  one matrix product of the flattened pairs; the reference joins the features into a vector of length four and
  contracts twice.  Over the extended reals a change of float format is the identity and every finite sum has one
  value whatever its order, so the two results are the same function of the arguments, index by index: the kernel's
  result array is the specification's (`Cert.Pairwise.Kernel.run`), and so is the reference's
  (`Cert.Pairwise.Ref.result_eq` over the reference's run).  No law that needs finite inputs is used, so the
  precondition is never opened.  The idealization rewrote nothing, so its claim is `True`.
-/
import proofs.«135866_j75496935129487_2_alg».proof.Defs
import proofs.«135866_j75496935129487_2_alg».proof.Proof.Gen.Kernel
import proofs.«135866_j75496935129487_2_alg».proof.Proof.Gen.Kernel.Skeleton
import proofs.«135866_j75496935129487_2_alg».proof.Proof.Gen.Kernel.Launch
import proofs.«135866_j75496935129487_2_alg».proof.Proof.Gen.Kernel.Points
import proofs.«135866_j75496935129487_2_alg».proof.Proof.Gen.Kernel.Frame
import proofs.«135866_j75496935129487_2_alg».proof.Proof.Gen.KernelIdeal
import proofs.«135866_j75496935129487_2_alg».proof.Proof.Gen.KernelIdeal.Skeleton
import proofs.«135866_j75496935129487_2_alg».proof.Proof.Gen.KernelIdeal.Launch
import proofs.«135866_j75496935129487_2_alg».proof.Proof.Gen.KernelIdeal.Points
import proofs.«135866_j75496935129487_2_alg».proof.Proof.Gen.KernelIdeal.Frame
import proofs.«135866_j75496935129487_2_alg».proof.Proof.Gen.ReferenceIdeal
import proofs.«135866_j75496935129487_2_alg».proof.Proof.Gen.Pre_finite_inputs
import proofs.«135866_j75496935129487_2_alg».proof.Proof.Gen.KernelIdeal.Value
import proofs.«135866_j75496935129487_2_alg».proof.Proof.Gen.ReferenceIdeal.Run
import proofs.«135866_j75496935129487_2_alg».proof.Proof.Gen.ReferenceIdeal.Read
import proofs.«135866_j75496935129487_2_alg».proof.Proof.Blocks
import proofs.«135866_j75496935129487_2_alg».proof.Proof.RefSide
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result forgotten. -/
theorem frame_referenceIdeal :
    Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's array of those arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Pairwise.Kernel.final m c, Cert.Pairwise.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Pairwise.Ref.result_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
